-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S8x360 : Shape := ⟨2, ![8, 360]⟩
abbrev S360 : Shape := ⟨1, ![360]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S8x360 : S_.BroadcastsInDim S8x360 (![] : Fin 0 → Fin S8x360.rank)
  reducesTo_S8x360_S_d0_1 : S8x360.ReducesTo [0, 1] S_
  bcast_S_S360 : S_.BroadcastsInDim S360 (![] : Fin 0 → Fin S360.rank)
  reducesTo_S360_S_d0 : S360.ReducesTo [0] S_

variable [Facts]

def fn {F : FTy → Type} [FloatOps F] (main_arg0 : FVec F S1048576x2 .f32) (main_arg1 : FVec F S8x360 .f32) (main_arg2 : FVec F S360 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S8x360 .f32 := Host.absf main_arg1
  let main_cst_0 : FVec F S_ .f32 := constant S_ .f32 0x7F800000#32
  let main_v5 : FVec F S8x360 .f32 := broadcastInDim S8x360 ![] bcast_S_S8x360 main_cst_0
  let main_v6 : IVec S8x360 1 := cmpf .olt main_v4 main_v5
  let main_c_1 : IVec S_ 1 := constantI S_ 1 1#1
  let main_v7 : IVec S_ 1 := (fun x v => Host.reduce IntOp.andi x v reducesTo_S8x360_S_d0_1 h_S_) main_v6 main_c_1
  let main_v8 : IVec S_ 1 := andi main_v3 main_v7
  let main_v9 : FVec F S360 .f32 := Host.absf main_arg2
  let main_cst_2 : FVec F S_ .f32 := constant S_ .f32 0x7F800000#32
  let main_v10 : FVec F S360 .f32 := broadcastInDim S360 ![] bcast_S_S360 main_cst_2
  let main_v11 : IVec S360 1 := cmpf .olt main_v9 main_v10
  let main_c_3 : IVec S_ 1 := constantI S_ 1 1#1
  let main_v12 : IVec S_ 1 := (fun x v => Host.reduce IntOp.andi x v reducesTo_S360_S_d0 h_S_) main_v11 main_c_3
  let main_v13 : IVec S_ 1 := andi main_v8 main_v12
  main_v13
-- ==== Kernel.lean ====
abbrev S1048576x2 : Shape := ⟨2, ![1048576, 2]⟩
abbrev S8x360 : Shape := ⟨2, ![8, 360]⟩
abbrev S360 : Shape := ⟨1, ![360]⟩
abbrev S262144x8 : Shape := ⟨2, ![262144, 8]⟩
abbrev S262144x360 : Shape := ⟨2, ![262144, 360]⟩
abbrev S4096x8 : Shape := ⟨2, ![4096, 8]⟩
abbrev S4096x360 : Shape := ⟨2, ![4096, 360]⟩
abbrev S1x360 : Shape := ⟨2, ![1, 360]⟩
abbrev S262144x180x1x2 : Shape := ⟨4, ![262144, 180, 1, 2]⟩

abbrev nBuf : Space → Nat
  | .hbm => 6
  | .vmem => 6
  | .smem => 0
  | _ => 0

abbrev bufTy : (tb : Table) → Fin (tcTables nBuf tb) → BufTy
  | .hbm, ⟨0, _⟩ => ⟨S1048576x2, .f32⟩
  | .hbm, ⟨1, _⟩ => ⟨S8x360, .f32⟩
  | .hbm, ⟨2, _⟩ => ⟨S360, .f32⟩
  | .hbm, ⟨3, _⟩ => ⟨S262144x8, .f32⟩
  | .hbm, ⟨4, _⟩ => ⟨S262144x360, .f32⟩
  | .hbm, ⟨5, _⟩ => ⟨S262144x180x1x2, .f32⟩
  | .local _ .vmem, ⟨0, _⟩ => ⟨S4096x8, .f32⟩
  | .local _ .vmem, ⟨1, _⟩ => ⟨S4096x8, .f32⟩
  | .local _ .vmem, ⟨2, _⟩ => ⟨S8x360, .f32⟩
  | .local _ .vmem, ⟨3, _⟩ => ⟨S360, .f32⟩
  | .local _ .vmem, ⟨4, _⟩ => ⟨S4096x360, .f32⟩
  | .local _ .vmem, ⟨5, _⟩ => ⟨S4096x360, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x360 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576x2_S262144x8 : S1048576x2.ShapeCasts S262144x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  bitsLt_bf16_f32 : FTy.bits .bf16 < FTy.bits .f32
  inb_S8x360_S8x360_0_0 : ∀ a, (![0, 0] : Fin 2 → Nat) a + S8x360.size a ≤ S8x360.size a
  h_S8x360 : 0 < S8x360.numel
  inb_S360_S360_0 : ∀ a, (![0] : Fin 1 → Nat) a + S360.size a ≤ S360.size a
  h_S360 : 0 < S360.numel
  shapeCasts_S360_S1x360 : S360.ShapeCasts S1x360
  broadcasts_S1x360_S4096x360 : S1x360.Broadcasts S4096x360
  inb_S4096x360_S4096x360_0_0 : ∀ a, (![0, 0] : Fin 2 → Nat) a + S4096x360.size a ≤ S4096x360.size a
  h_S4096x360 : 0 < S4096x360.numel
  shapeCasts_S262144x360_S262144x180x1x2 : S262144x360.ShapeCasts S262144x180x1x2
  dot_S4096x8_S8x360_S4096x360_1_0_0_1_n_n_wf : DotDims.WF S4096x8 S8x360 S4096x360 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S262144x8.size a
  hwx0_0 : ∀ i : grid0.Coords, EltTy.bits .f32 = 32 ∨ (Rect.block (s := S262144x8) S4096x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x360.size a ≤ S8x360.size a
  hwx0_1 : ∀ i : grid0.Coords, EltTy.bits .f32 = 32 ∨ (Rect.block (s := S8x360) S8x360.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360.size a ≤ S360.size a
  hwx0_2 : ∀ i : grid0.Coords, EltTy.bits .f32 = 32 ∨ (Rect.block (s := S360) S360.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x360.size a ≤ S262144x360.size a
  hwx0_3 : ∀ i : grid0.Coords, EltTy.bits .f32 = 32 ∨ (Rect.block (s := S262144x360) S4096x360.size (cc0_transform_3 i) (hinb0_3 i)).WholeWords (EltTy.packing .f32)

variable [Facts₀]

def dot_S4096x8_S8x360_S4096x360_1_0_0_1_n_n : DotDims S4096x8 S8x360 S4096x360 where
  lhsContracting := [1]
  rhsContracting := [0]
  lhsNonContracting := [0]
  rhsNonContracting := [1]
  lhsBatch := []
  rhsBatch := []
  wf := dot_S4096x8_S8x360_S4096x360_1_0_0_1_n_n_wf

abbrev win0_0 : Pipeline.Window sig grid0 :=
  Pipeline.Window.ofSpec (Memref.whole main_v0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x360.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S360.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x360.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S8x360 : Shape := ⟨2, ![8, 360]⟩
abbrev S360 : Shape := ⟨1, ![360]⟩
abbrev S_ : Shape := ⟨0, ![]⟩
abbrev S262144x8 : Shape := ⟨2, ![262144, 8]⟩
abbrev S262144x360 : Shape := ⟨2, ![262144, 360]⟩
abbrev S1x360 : Shape := ⟨2, ![1, 360]⟩
abbrev S262144x180x1x2 : Shape := ⟨4, ![262144, 180, 1, 2]⟩

abbrev nBuf : Space → Nat
  | .hbm => 15
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S8x360, .f32⟩
  | .hbm, ⟨2, _⟩ => ⟨S360, .f32⟩
  | .hbm, ⟨3, _⟩ => ⟨S_, .i32⟩
  | .hbm, ⟨4, _⟩ => ⟨S_, .f32⟩
  | .hbm, ⟨5, _⟩ => ⟨S1048576x2, .f32⟩
  | .hbm, ⟨6, _⟩ => ⟨S262144x8, .f32⟩
  | .hbm, ⟨7, _⟩ => ⟨S262144x360, .f32⟩
  | .hbm, ⟨8, _⟩ => ⟨S1x360, .f32⟩
  | .hbm, ⟨9, _⟩ => ⟨S262144x360, .f32⟩
  | .hbm, ⟨10, _⟩ => ⟨S262144x360, .f32⟩
  | .hbm, ⟨11, _⟩ => ⟨S_, .f32⟩
  | .hbm, ⟨12, _⟩ => ⟨S262144x360, .f32⟩
  | .hbm, ⟨13, _⟩ => ⟨S262144x360, .f32⟩
  | .hbm, ⟨14, _⟩ => ⟨S262144x180x1x2, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_cst : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  pads_S1048576x2_S1048576x2_000_000 : S1048576x2.Pads (![0, 0] : Fin 2 → Nat) ![0, 0] ![0, 0] S1048576x2
  h_S_ : 0 < S_.numel
  shapeCasts_S1048576x2_S262144x8 : S1048576x2.ShapeCasts S262144x8
  bcast_S360_S1x360_1 : S360.BroadcastsInDim S1x360 (![1] : Fin 1 → Fin S1x360.rank)
  bcast_S1x360_S262144x360_0_1 : S1x360.BroadcastsInDim S262144x360 (![0, 1] : Fin 2 → Fin S262144x360.rank)
  bcast_S_S262144x360 : S_.BroadcastsInDim S262144x360 (![] : Fin 0 → Fin S262144x360.rank)
  shapeCasts_S262144x360_S262144x180x1x2 : S262144x360.ShapeCasts S262144x180x1x2
  dot_S262144x8_S8x360_S262144x360_1_0_0_1_n_n_wf : DotDims.WF S262144x8 S8x360 S262144x360 [1] [0] [0] [1] [] []

variable [Facts₀]

def dot_S262144x8_S8x360_S262144x360_1_0_0_1_n_n : DotDims S262144x8 S8x360 S262144x360 where
  lhsContracting := [1]
  rhsContracting := [0]
  lhsNonContracting := [0]
  rhsNonContracting := [1]
  lhsBatch := []
  rhsBatch := []
  wf := dot_S262144x8_S8x360_S262144x360_1_0_0_1_n_n_wf

class Facts : Prop extends Facts₀ where

variable [Facts]
-- ==== Proof.Spec.lean ====
/-
  The mathematics of the certificate: one rectified linear layer.

  The argument `x` of 1048576 rows of 2 numbers is read, four rows at a time, as a matrix `A` of 262144 rows of 8;
  the result is `max (A · W + b, 0)`, entry by entry

      Y (r, c) = max (Σ_{k < 8} A (r, k) · W (k, c) + b (c), 0),

  afterwards viewed as an array of shape [262144, 180, 1, 2]. Both programs compute exactly this sum, in this order, on
  the extended reals: the kernel one block of 4096 rows at a time with a rounding to a 16-bit format in front of the
  product (no change of value on the extended reals), the reference on the whole matrix at once. No algebraic law is
  needed between the two beyond reading each side at an index, so no finiteness of the inputs is used.

  Stated here, over literal shapes and importing no program: the one output unit (`unit`), an entry of the layer from
  explicit row and column (`entry`), and the whole matrix (`layer`).
-/
import Idealize.ShloMosaic.PureOps.Ideal
import Idealize.ShloMosaic.Lib.ValueIdx

noncomputable section

namespace Cert.Dense

open Idealize.ShloMosaic Idealize.ShloMosaic.ValueIdx

/-- One output unit over eight inputs: the weighted sum plus the bias, cut off below at zero. -/
def unit (a w : Fin 8 → EReal) (β : EReal) : EReal := max ((∑ k : Fin 8, a k * w k) + β) 0

/-- Entry (r, c) of the layer: the unit of row `r` of `A`, column `c` of `W` and bias `b c`. -/
def entry (A : FVec Ideal ⟨2, ![262144, 8]⟩ .f32) (W : FVec Ideal ⟨2, ![8, 360]⟩ .f32) (b : FVec Ideal ⟨1, ![360]⟩ .f32)
    (r : Fin 262144) (c : Fin 360) : EReal :=
  unit (fun k => A (ix2 r k)) (fun k => W (ix2 k c)) (b (ix1 c))

/-- The layer's whole result matrix `max (A · W + b, 0)`. -/
def layer (A : FVec Ideal ⟨2, ![262144, 8]⟩ .f32) (W : FVec Ideal ⟨2, ![8, 360]⟩ .f32) (b : FVec Ideal ⟨1, ![360]⟩ .f32) :
    FVec Ideal ⟨2, ![262144, 360]⟩ .f32 :=
  fun i => entry A W b ⟨(i 0).val, (i 0).isLt⟩ ⟨(i 1).val, (i 1).isLt⟩

/-- The matrix read at an index whose coordinates are known. -/
theorem layer_apply (A : FVec Ideal ⟨2, ![262144, 8]⟩ .f32) (W : FVec Ideal ⟨2, ![8, 360]⟩ .f32) (b : FVec Ideal ⟨1, ![360]⟩ .f32)
    (i : (⟨2, ![262144, 360]⟩ : Shape).Idx) (r : Fin 262144) (c : Fin 360) (hr : (i 0).val = r.val) (hc : (i 1).val = c.val) :
    layer A W b i = entry A W b r c := by
  obtain rfl : (⟨(i 0).val, (i 0).isLt⟩ : Fin 262144) = r := Fin.ext hr
  obtain rfl : (⟨(i 1).val, (i 1).isLt⟩ : Fin 360) = c := Fin.ext hc
  rfl

end Cert.Dense

end
-- ==== Proof.Payload.lean ====
/-
  What the kernel body stores, read at one entry of its block.

  The body loads a block `x0` of 4096 rows of the matrix `A`, the whole weight matrix `x1` and the whole bias `x2`, and
  stores `max (x0 · x1 + bias, 0)` where `bias` is `x2` laid out as one row and repeated over the 4096 rows. Read at
  entry (p, q) of the block this is the layer's output unit of row `p` of `x0`, column `q` of `x1` and `x2 q`:
  the rounding of both factors to a 16-bit format is the identity on the extended reals, the matrix product into a zero
  accumulator is the plain sum over the eight contracted positions, the repeated bias row reads `x2 q` on every row,
  and the constant it is cut off at is the zero word.
-/
import proofs.«124345_j60644938219641_2_alg».proof.Proof.Gen.KernelIdeal.Skeleton
import proofs.«124345_j60644938219641_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The body's product contracts axis 1 of the left factor with axis 0 of the right: the left factor is read on the
    output's row … -/
theorem lhs_row (i : S4096x360.Idx) (q : dot_S4096x8_S8x360_S4096x360_1_0_0_1_n_n.contr.Idx) :
    (dot_S4096x8_S8x360_S4096x360_1_0_0_1_n_n.lhsIdx i q 0).val = (i 0).val := by
  unfold DotDims.lhsIdx
  rw [dif_neg (show ¬(0 : Fin S4096x8.rank) ∈ dot_S4096x8_S8x360_S4096x360_1_0_0_1_n_n.lhsBatch by decide), dif_pos (show (0 : Fin S4096x8.rank) ∈ dot_S4096x8_S8x360_S4096x360_1_0_0_1_n_n.lhsNonContracting by decide)]
  rfl
/-- … at the contracted position, -/
theorem lhs_contr (i : S4096x360.Idx) (q : dot_S4096x8_S8x360_S4096x360_1_0_0_1_n_n.contr.Idx) :
    (dot_S4096x8_S8x360_S4096x360_1_0_0_1_n_n.lhsIdx i q 1).val = (q ⟨0, by decide⟩).val :=
  dot_S4096x8_S8x360_S4096x360_1_0_0_1_n_n.lhsIdx_val_of_single rfl i q
/-- and the right factor at the contracted position … -/
theorem rhs_contr (i : S4096x360.Idx) (q : dot_S4096x8_S8x360_S4096x360_1_0_0_1_n_n.contr.Idx) :
    (dot_S4096x8_S8x360_S4096x360_1_0_0_1_n_n.rhsIdx i q 0).val = (q ⟨0, by decide⟩).val :=
  dot_S4096x8_S8x360_S4096x360_1_0_0_1_n_n.rhsIdx_val_of_single rfl i q
/-- … on the output's column. -/
theorem rhs_col (i : S4096x360.Idx) (q : dot_S4096x8_S8x360_S4096x360_1_0_0_1_n_n.contr.Idx) :
    (dot_S4096x8_S8x360_S4096x360_1_0_0_1_n_n.rhsIdx i q 1).val = (i 1).val := by
  unfold DotDims.rhsIdx
  rw [dif_neg (show ¬(1 : Fin S8x360.rank) ∈ dot_S4096x8_S8x360_S4096x360_1_0_0_1_n_n.rhsBatch by decide), dif_pos (show (1 : Fin S8x360.rank) ∈ dot_S4096x8_S8x360_S4096x360_1_0_0_1_n_n.rhsNonContracting by decide)]
  rfl

/-- The body's matrix product into the zero accumulator, at entry (p, q): the sum over the eight contracted positions
    of row `p` of the left factor times column `q` of the right. -/
theorem product_apply (l : FVec Ideal S4096x8 .bf16) (r : FVec Ideal S8x360 .bf16) (p : Fin 4096) (q : Fin 360) :
    matmul dot_S4096x8_S8x360_S4096x360_1_0_0_1_n_n none l r (constant (F := Ideal) S4096x360 .f32 0x00000000#32) (ix2 p q)
      = ∑ k : Fin 8, l (ix2 p k) * r (ix2 k q) := by
  simp only [matmul]
  rw [Ideal.matmul_constant_zero_apply, ← Equiv.sum_comp (ValueIdx.contrEquiv1 dot_S4096x8_S8x360_S4096x360_1_0_0_1_n_n 8 rfl rfl).symm]
  refine Finset.sum_congr rfl fun k _ => ?_
  have hk := ValueIdx.contrEquiv1_symm_val dot_S4096x8_S8x360_S4096x360_1_0_0_1_n_n 8 rfl rfl k
  have el : dot_S4096x8_S8x360_S4096x360_1_0_0_1_n_n.lhsIdx (ix2 p q) ((ValueIdx.contrEquiv1 dot_S4096x8_S8x360_S4096x360_1_0_0_1_n_n 8 rfl rfl).symm k) = ix2 p k := funext fun a => Fin.ext (by
    match a with
    | ⟨0, _⟩ => exact lhs_row _ _
    | ⟨1, _⟩ => exact (lhs_contr _ _).trans hk)
  have er : dot_S4096x8_S8x360_S4096x360_1_0_0_1_n_n.rhsIdx (ix2 p q) ((ValueIdx.contrEquiv1 dot_S4096x8_S8x360_S4096x360_1_0_0_1_n_n 8 rfl rfl).symm k) = ix2 k q := funext fun a => Fin.ext (by
    match a with
    | ⟨0, _⟩ => exact (rhs_contr _ _).trans hk
    | ⟨1, _⟩ => exact rhs_col _ _)
  rw [el, er]

/-- The bias laid out as one row and repeated over the block's rows reads `x2 q` in column `q` of every row. -/
theorem bias_apply (x2 : Vec Ideal S360 .f32) (p : Fin 4096) (q : Fin 360) :
    broadcastTo S4096x360 (shapeCast S1x360 x2 shapeCasts_S360_S1x360) broadcasts_S1x360_S4096x360 (ix2 p q) = x2 (ix1 q) :=
  (broadcastTo_1b_ab_apply _ broadcasts_S1x360_S4096x360 p q).trans (shapeCast_a_1a_apply x2 shapeCasts_S360_S1x360 0 q)

/-- WHAT THE BODY STORES at entry (p, q) of its block is the layer's unit of row `p` of the loaded block, column `q` of
    the weights and the bias at `q`. -/
theorem pay_apply (x0 : Vec Ideal S4096x8 .f32) (x1 : Vec Ideal S8x360 .f32) (x2 : Vec Ideal S360 .f32) (p : Fin 4096) (q : Fin 360) :
    k0_pay1 (F := Ideal) x0 x1 x2 (ix2 p q) = Cert.Dense.unit (fun k => x0 (ix2 p k)) (fun k => x1 (ix2 k q)) (x2 (ix1 q)) := by
  unfold k0_pay1 Cert.Dense.unit
  dsimp only
  rw [maximumf_apply, addf_apply, broadcast_apply, product_apply, bias_apply, shapeCast_self]
  show max _ (Ideal.ofBits .f32 0x00000000#32) = _
  rw [Ideal.ofBits_zero_f32]
  rfl

/-- The same at any index of the block whose two coordinates are known. -/
theorem pay_at (x0 : Vec Ideal S4096x8 .f32) (x1 : Vec Ideal S8x360 .f32) (x2 : Vec Ideal S360 .f32) (y : S4096x360.Idx)
    (p : Fin 4096) (q : Fin 360) (hp : (y 0).val = p.val) (hq : (y 1).val = q.val) :
    k0_pay1 (F := Ideal) x0 x1 x2 y = Cert.Dense.unit (fun k => x0 (ix2 p k)) (fun k => x1 (ix2 k q)) (x2 (ix1 q)) := by
  obtain rfl : y = ix2 p q := funext fun a => Fin.ext (by
    match a with
    | ⟨0, _⟩ => exact hp
    | ⟨1, _⟩ => exact hq)
  exact pay_apply x0 x1 x2 p q

end Cert.KernelIdeal.Hand

end
-- ==== Proof.Blocks.lean ====
/-
  From blocks to the matrix: what the kernel's output array holds after the run.

  The grid has 64 points. Point `t` is given rows `4096 t … 4096 t + 4095` of the matrix `A` (the array the host
  reshape in front of the region wrote), the whole weight matrix and the whole bias, and writes back rows
  `4096 t … 4096 t + 4095` of the output. What it writes back is those rows of the layer `max (A · W + b, 0)`: entry
  (p, q) of the stored block is the layer's unit of row `p` of the input block, which is row `4096 t + p` of `A`. The 64
  row blocks tile the output (row `r` lies in the block of point `r / 4096`), so the array ends holding the layer.
-/
import proofs.«124345_j60644938219641_2_alg».proof.Proof.Gen.KernelIdeal.Frame
import proofs.«124345_j60644938219641_2_alg».proof.Proof.Payload
import proofs.«124345_j60644938219641_2_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The block indices at point `t`: the matrix `A` and the output move down one row block per point, the weights and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry `y` of point `t`'s block of `A` is entry (4096 t + y₀, y₁) of `A`. -/
theorem rows_apply (c : Dev nD) (t : Fin cfg0.N) (y : S4096x8.Idx) (i : S262144x8.Idx)
    (h0 : (i 0).val = t.val * 4096 + (y 0).val) (h1 : (i 1).val = (y 1).val) :
    (iblk m c 0 t : Vec Ideal S4096x8 .f32) y = (V m c main_v0 : S262144x8.Idx → Elt Ideal .f32) i := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 4096 + 1 * (y 0).val = (i 0).val; rw [e0, h0]; omega
  | ⟨1, _⟩ => show win0_0.index t (1 : Fin 2) * 8 + 1 * (y 1).val = (i 1).val; rw [e1, h1]; omega

/-- The weights' block at every point is the whole weight matrix. -/
theorem weights_apply (c : Dev nD) (t : Fin cfg0.N) (y : S8x360.Idx) :
    (iblk m c 1 t : Vec Ideal S8x360 .f32) y = (V m c main_arg1 : S8x360.Idx → Elt Ideal .f32) y := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 8 + 1 * (y 0).val = (y 0).val; rw [e0]; omega
  | ⟨1, _⟩ => show win0_1.index t (1 : Fin 2) * 360 + 1 * (y 1).val = (y 1).val; rw [e1]; omega

/-- The bias' block at every point is the whole bias. -/
theorem bias_blk_apply (c : Dev nD) (t : Fin cfg0.N) (y : S360.Idx) :
    (iblk m c 2 t : Vec Ideal S360 .f32) y = (V m c main_arg2 : S360.Idx → Elt Ideal .f32) y := by
  obtain ⟨-, -, -, -, e0, -⟩ := idx_facts t
  unfold iblk
  rw [View.read_apply]
  show V m c main_arg2 _ = V m c main_arg2 _
  congr 1
  funext a
  apply Fin.ext
  match a with
  | ⟨0, _⟩ => show win0_2.index t (0 : Fin 1) * 360 + 1 * (y 0).val = (y 0).val; rw [e0]; omega

/-- WHAT POINT `t` WRITES BACK is its row block of the layer of the matrix, the weights and the bias as the region finds
    them. -/
theorem flushed_eq (c : Dev nD) (t : Fin cfg0.N) :
    (dats m 0 c).flushed 3 t
      = ((cfg0.win 3).blk t).view.read (Elt Ideal) (Cert.Dense.layer (V m c main_v0) (V m c main_arg1) (V m c main_arg2)) := by
  show (cfg0.win 3).cut (grid0.coords t) ((dats m 0 c).after 3 t) = _
  rw [after0_3]
  unfold out0_3
  rw [View.canon_unit_zero zeros2]
  simp only [View.ld_unit_zero (S := S4096x8) zeros2, View.ld_unit_zero (S := S8x360) zeros2, View.ld_unit_zero (S := S360) zeros1]
  obtain ⟨-, -, -, -, -, e0, e1⟩ := idx_facts t
  have hN : cfg0.N = 64 := N_0
  have ht : t.val < 64 := hN ▸ t.isLt
  funext j
  have hp : (j 0).val < 4096 := (j 0).isLt
  have hq : (j 1).val < 360 := (j 1).isLt
  have hr : t.val * 4096 + (j 0).val < 262144 := by omega
  rw [View.read_apply]
  refine ((pay_at (iblk m c 0 t) (iblk m c 1 t) (iblk m c 2 t) j ⟨(j 0).val, hp⟩ ⟨(j 1).val, hq⟩ rfl rfl).trans ?_).trans
    (Cert.Dense.layer_apply (V m c main_v0) (V m c main_arg1) (V m c main_arg2) (((cfg0.win 3).blk t).view.emb j)
      ⟨t.val * 4096 + (j 0).val, hr⟩ ⟨(j 1).val, hq⟩ ?_ ?_).symm
  · unfold Cert.Dense.entry
    have ha : (fun k : Fin 8 => (iblk m c 0 t : Vec Ideal S4096x8 .f32) (ix2 (⟨(j 0).val, hp⟩ : Fin 4096) k))
        = fun k : Fin 8 => (V m c main_v0 : S262144x8.Idx → Elt Ideal .f32) (ix2 (⟨t.val * 4096 + (j 0).val, hr⟩ : Fin 262144) k) :=
      funext fun k => rows_apply m c t _ _ rfl rfl
    have hw : (fun k : Fin 8 => (iblk m c 1 t : Vec Ideal S8x360 .f32) (ix2 k (⟨(j 1).val, hq⟩ : Fin 360)))
        = fun k : Fin 8 => (V m c main_arg1 : S8x360.Idx → Elt Ideal .f32) (ix2 k (⟨(j 1).val, hq⟩ : Fin 360)) :=
      funext fun k => weights_apply m c t _
    rw [ha, hw, bias_blk_apply]
  · show win0_3.index t (0 : Fin 2) * 4096 + 1 * (j 0).val = t.val * 4096 + (j 0).val
    rw [e0]; omega
  · show win0_3.index t (1 : Fin 2) * 360 + 1 * (j 1).val = (j 1).val
    rw [e1]; omega

/-- An index of the output array is in point `t`'s block iff each coordinate is in the block's range on its axis. -/
theorem mem_blk (t : Fin cfg0.N) (i : S262144x360.Idx) :
    i ∈ ((cfg0.win 3).blk t).view.set ↔ ∀ a : Fin 2, win0_3.index t a * S4096x360.size a ≤ (i a).val ∧ (i a).val < win0_3.index t a * S4096x360.size a + S4096x360.size a := by
  show i ∈ ((View.whole main_v1).slice (win0_3.rect t)).set ↔ _
  rw [View.set_slice_whole, Rect.mem_set_unit]
  exact Iff.rfl

/-- Every row of the output lies in the block of some point: row `r` in that of point `r / 4096`. -/
theorem cover (i : S262144x360.Idx) : ∃ t : Fin cfg0.N, (cfg0.win 3).flush t = true ∧ i ∈ ((cfg0.win 3).blk t).view.set := by
  have hN : cfg0.N = 64 := N_0
  have hi0 : (i 0).val < 262144 := (i 0).isLt
  have hi1 : (i 1).val < 360 := (i 1).isLt
  have hlt : (i 0).val / 4096 < cfg0.N := by rw [hN]; omega
  obtain ⟨-, -, -, -, -, e0, e1⟩ := idx_facts ⟨(i 0).val / 4096, hlt⟩
  refine ⟨⟨(i 0).val / 4096, hlt⟩, flush0_3 _, ?_⟩
  rw [mem_blk]
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_3.index ⟨(i 0).val / 4096, hlt⟩ (1 : Fin 2) * 360 ≤ (i 1).val ∧ (i 1).val < win0_3.index ⟨(i 0).val / 4096, hlt⟩ (1 : Fin 2) * 360 + 360
    rw [e1]
    omega

/-- THE OUTPUT ARRAY after the region is the layer of the matrix, the weights and the bias as the region finds them. -/
theorem final (c : Dev nD) :
    (dats m 0 c).arrAt 3 cfg0.N = Cert.Dense.layer (V m c main_v0) (V m c main_arg1) (V m c main_arg2) :=
  (dats m 0 c).arrAt_eq_of_cover 3 _ (fun t _ => flushed_eq m c t) cover

end Cert.KernelIdeal.Hand

end
-- ==== Proof.KernelRun.lean ====
/-
  The kernel program's run, read: its result as one function of the arguments.

  Around the region the program has one host operation on each side. In front, `x` is viewed as the matrix `A` of
  262144 rows of 8, which is the array the region's first window reads; the weights and the bias reach the region as
  launched. Behind, the region's output matrix — the layer `max (A · W + b, 0)` — is viewed in four axes, and that view
  is the program's result. The arguments end as launched.
-/
import proofs.«124345_j60644938219641_2_alg».proof.Proof.Blocks
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The matrix the region's first window reads is the argument `x`, four rows to a row. -/
theorem flat_eq (c : Dev nD) :
    (V m c main_v0 : S262144x8.Idx → Elt Ideal .f32)
      = shapeCast S262144x8 (m ((c.tc : Thread nD τ).loc main_arg0)) shapeCasts_S1048576x2_S262144x8 := by
  show StableHlo.after hostOps0 (fun b => m (c, b)) (Proc.devRef .tc main_v0) = _
  after_results
  rfl

/-- The output matrix after the region, in terms of the arguments as launched. -/
theorem matrix_eq (c : Dev nD) :
    (dats m 0 c).arrAt 3 cfg0.N
      = Cert.Dense.layer (shapeCast S262144x8 (m ((c.tc : Thread nD τ).loc main_arg0)) shapeCasts_S1048576x2_S262144x8)
          (m ((c.tc : Thread nD τ).loc main_arg1)) (m ((c.tc : Thread nD τ).loc main_arg2)) := by
  rw [final, flat_eq, V_main_arg1, V_main_arg2]

/-- The program's result after the host operation behind the region: the output matrix viewed in four axes. -/
theorem tail_eq (c : Dev nD) :
    Pipeline.afterTail₀ cfgs (dats m) 0 (V0 m) [hostOps1] c main_v2
      = shapeCast S262144x180x1x2
          (Cert.Dense.layer (shapeCast S262144x8 (m ((c.tc : Thread nD τ).loc main_arg0)) shapeCasts_S1048576x2_S262144x8)
            (m ((c.tc : Thread nD τ).loc main_arg1)) (m ((c.tc : Thread nD τ).loc main_arg2)))
          shapeCasts_S262144x360_S262144x180x1x2 := by
  have hw : Pipeline.withArrays (cfgs 0).spec c (V0 m c) (fun w => (dats m 0 c).arrAt w (cfgs 0).N) (Proc.devRef .tc main_v1)
      = Cert.Dense.layer (shapeCast S262144x8 (m ((c.tc : Thread nD τ).loc main_arg0)) shapeCasts_S1048576x2_S262144x8)
          (m ((c.tc : Thread nD τ).loc main_arg1)) (m ((c.tc : Thread nD τ).loc main_arg2)) :=
    (Pipeline.withArrays_arr spec0 launch0.win.arr_inj c _ _ 3).trans (matrix_eq m c)
  unfold Pipeline.afterTail₀
  show StableHlo.after hostOps1 _ (Proc.devRef .tc main_v2) = _
  after_results
  rw [hw]
  rfl

/-- THE RUN: every weakly fair execution of the kernel program terminates with the result at the layer of the flat
    view of `x`, the weights and the bias, viewed in four axes, and the arguments unchanged. -/
theorem run : θ_run defs (onTc (τ := τ) (main (F := Ideal))) ⟨m, fun _ => 0, ρ⟩ (fun r => ∀ c : Dev nD,
      r.2.mem ((c.tc : Thread nD τ).loc main_v2)
        = shapeCast S262144x180x1x2
            (Cert.Dense.layer (shapeCast S262144x8 (m ((c.tc : Thread nD τ).loc main_arg0)) shapeCasts_S1048576x2_S262144x8)
              (m ((c.tc : Thread nD τ).loc main_arg1)) (m ((c.tc : Thread nD τ).loc main_arg2)))
            shapeCasts_S262144x360_S262144x180x1x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.LibPadNone.lean ====
/-
  Padding by nothing.

  `stablehlo.pad` with no low padding and no interior padding, into a result of the operand's own shape, moves no
  element: the result coordinate `j` on an axis reads the operand coordinate `(j - 0) / (0 + 1) = j`, which is always
  inside the operand, so the padding value is read nowhere. (The high padding is then forced to be zero by the shape
  relation, and plays no part in the reading.)
-/
import Idealize.ShloMosaic.PureOps

namespace Cert.Lib.PadNone

open Idealize.ShloMosaic

/-- A pad whose low and interior widths are all zero, into the operand's own shape, is the operand. -/
theorem pad_eq_self {s : Shape} {α : Type} (lo hi interior : Fin s.rank → Nat) (x : s.Idx → α) {u : Shape}
    (v : u.Idx → α) (h : s.Pads lo hi interior s) (hu : 0 < u.numel)
    (hlo : ∀ a, lo a = 0) (hint : ∀ a, interior a = 0) :
    pad s lo hi interior x v h hu = x := by
  funext j
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hlo a, hint a, Nat.sub_zero, Nat.zero_add, Nat.div_one]
    exact ⟨Nat.zero_le _, Nat.mod_one _, (j (a.cast h.1)).isLt⟩
  unfold pad
  rw [dif_pos hin]
  refine congrArg x (funext fun a => Fin.ext ?_)
  show ((j (a.cast h.1)).val - lo a) / (interior a + 1) = (j a).val
  rw [hlo a, hint a, Nat.sub_zero, Nat.zero_add, Nat.div_one]
  rfl

end Cert.Lib.PadNone
-- ==== Proof.RefLayer.lean ====
/-
  The reference computes the layer.

  The reference pads `x` by nothing (the number of rows is already a multiple of four), views it as the matrix `A` of
  262144 rows of 8, and applies one `dot_general`, the bias row repeated over all rows, and a maximum with zero. Read
  at an index, stage by stage, its matrix result is the layer's `max (A · W + b, 0)` with the sum over the contracted
  axis in the same order; its final result is that matrix viewed in four axes.
-/
import proofs.«124345_j60644938219641_2_alg».proof.Proof.Gen.ReferenceIdeal.Read
import proofs.«124345_j60644938219641_2_alg».proof.Proof.Spec
import proofs.«124345_j60644938219641_2_alg».proof.Proof.LibPadNone
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The pad in front of the reshape has all widths zero: it returns its operand. -/
theorem pad_none (x0 : (⟨S1048576x2, .f32⟩ : BufTy).Contents (Elt Ideal)) : val_main_v0 (F := Ideal) x0 = x0 := by
  unfold val_main_v0
  exact Cert.Lib.PadNone.pad_eq_self _ _ _ _ _ _ _ (fun a => by fin_cases a <;> rfl) (fun a => by fin_cases a <;> rfl)

/-- So the matrix the product reads is the argument itself, four rows to a row. -/
theorem flat_eq (x0 : (⟨S1048576x2, .f32⟩ : BufTy).Contents (Elt Ideal)) :
    val_main_v1 (F := Ideal) x0 = shapeCast S262144x8 x0 shapeCasts_S1048576x2_S262144x8 := by
  unfold val_main_v1
  rw [pad_none]

/-- THE REFERENCE'S MATRIX RESULT, after the maximum with zero, is the layer of the flat view of `x`, the weights and
    the bias. -/
theorem relu_eq (x0 : (⟨S1048576x2, .f32⟩ : BufTy).Contents (Elt Ideal)) (x1 : (⟨S8x360, .f32⟩ : BufTy).Contents (Elt Ideal))
    (x2 : (⟨S360, .f32⟩ : BufTy).Contents (Elt Ideal)) :
    val_main_v6 (F := Ideal) x0 x1 x2 = Cert.Dense.layer (shapeCast S262144x8 x0 shapeCasts_S1048576x2_S262144x8) x1 x2 := by
  funext i
  have el : ∀ k : Fin 8, lidx_main_v2 i k = ix2 (⟨(i 0).val, (i 0).isLt⟩ : Fin 262144) k := fun k => funext fun a => by
    match a with
    | ⟨0, _⟩ => rfl
    | ⟨1, _⟩ => rfl
  have er : ∀ k : Fin 8, ridx_main_v2 i k = ix2 k (⟨(i 1).val, (i 1).isLt⟩ : Fin 360) := fun k => funext fun a => by
    match a with
    | ⟨0, _⟩ => rfl
    | ⟨1, _⟩ => rfl
  have eb : idx_main_v3 (idx_main_v4 i) = ix1 (⟨(i 1).val, (i 1).isLt⟩ : Fin 360) := funext fun a => by
    match a with
    | ⟨0, _⟩ => rfl
  rw [val_main_v6_apply, val_main_v5_apply, val_main_v2_apply, val_main_v4_apply, val_main_v3_apply,
    val_main_call1_v0_apply, val_main_call1_cst_apply, flat_eq]
  simp only [el, er, eb, Ideal.addf_def, Ideal.maximumf_def, Ideal.ofBits_def, Ideal.ofBits_zero_f32]
  rfl

/-- The reference's result: the layer viewed in four axes. -/
theorem result_eq (x0 : (⟨S1048576x2, .f32⟩ : BufTy).Contents (Elt Ideal)) (x1 : (⟨S8x360, .f32⟩ : BufTy).Contents (Elt Ideal))
    (x2 : (⟨S360, .f32⟩ : BufTy).Contents (Elt Ideal)) :
    val_main_v7 (F := Ideal) x0 x1 x2
      = shapeCast S262144x180x1x2 (Cert.Dense.layer (shapeCast S262144x8 x0 shapeCasts_S1048576x2_S262144x8) x1 x2)
          shapeCasts_S262144x360_S262144x180x1x2 := by
  unfold val_main_v7
  rw [relu_eq]

end Cert.ReferenceIdeal.RefValue

end
-- ==== Proof.lean ====
/-
  The certificate of one rectified linear layer: `max (A · W + b, 0)` with `A` the argument `x` read four rows to a row
  (262144 rows of 8), the result viewed as an array of shape [262144, 180, 1, 2] (Proof/Spec.lean).

  The kernel program views `x` as `A` on the host, computes the layer in 64 row blocks of 4096 rows — each block a matrix
  product of the block with the weights, both factors first rounded to a 16-bit format, plus the bias row, cut off below
  at zero — and views the output matrix in four axes (Proof/Payload.lean: one stored entry; Proof/Blocks.lean: the 64
  blocks make up the layer; Proof/KernelRun.lean: the program's result). The reference pads `x` by nothing, views it as
  `A`, and applies one product, the bias and the maximum to the whole matrix (Proof/RefLayer.lean). On the extended
  reals the rounding changes nothing and both products are the same sum over the eight contracted positions, so the two
  results are one function of the arguments, index by index, whatever the arguments hold: the precondition is not used.

  The three frames are the programs' runs with the result dropped; the idealization rewrote no operation, so there is
  nothing to preserve.
-/
import proofs.«124345_j60644938219641_2_alg».proof.Defs
import proofs.«124345_j60644938219641_2_alg».proof.Proof.Gen.Kernel
import proofs.«124345_j60644938219641_2_alg».proof.Proof.Gen.Kernel.Skeleton
import proofs.«124345_j60644938219641_2_alg».proof.Proof.Gen.Kernel.Launch
import proofs.«124345_j60644938219641_2_alg».proof.Proof.Gen.Kernel.Points
import proofs.«124345_j60644938219641_2_alg».proof.Proof.Gen.Kernel.Frame
import proofs.«124345_j60644938219641_2_alg».proof.Proof.Gen.KernelIdeal
import proofs.«124345_j60644938219641_2_alg».proof.Proof.Gen.KernelIdeal.Skeleton
import proofs.«124345_j60644938219641_2_alg».proof.Proof.Gen.KernelIdeal.Launch
import proofs.«124345_j60644938219641_2_alg».proof.Proof.Gen.KernelIdeal.Points
import proofs.«124345_j60644938219641_2_alg».proof.Proof.Gen.KernelIdeal.Frame
import proofs.«124345_j60644938219641_2_alg».proof.Proof.Gen.ReferenceIdeal
import proofs.«124345_j60644938219641_2_alg».proof.Proof.Gen.Pre_finite_inputs
import proofs.«124345_j60644938219641_2_alg».proof.Proof.Gen.ReferenceIdeal.Run
import proofs.«124345_j60644938219641_2_alg».proof.Proof.Gen.ReferenceIdeal.Read
import proofs.«124345_j60644938219641_2_alg».proof.Proof.KernelRun
import proofs.«124345_j60644938219641_2_alg».proof.Proof.RefLayer
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the arguments, both programs end with the layer of the flat
    view of `x`, the weights and the bias, viewed in four axes: the kernel program by its run read block by block, the
    reference by its run read stage by stage. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
